-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x16x2048x2048 : Shape := ⟨4, ![2, 16, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) (main_arg3 : IVec S2x16x2048x2048 1) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x16x2048x2048 : Shape := ⟨4, ![2, 16, 2048, 2048]⟩
abbrev S1x1x1024x64 : Shape := ⟨4, ![1, 1, 1024, 64]⟩
abbrev S1x1x2048x64 : Shape := ⟨4, ![1, 1, 2048, 64]⟩
abbrev S1x1x1024x2048 : Shape := ⟨4, ![1, 1, 1024, 2048]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .i1⟩
  | .hbm, ⟨4, _⟩ => ⟨S2x16x2048x2048, .i32⟩
  | .hbm, ⟨5, _⟩ => ⟨S2x16x2048x64, .f32⟩
  | .hbm, ⟨6, _⟩ => ⟨S2x16x2048x2048, .f32⟩
  | .local _ .vmem, ⟨0, _⟩ => ⟨S1x1x1024x64, .f32⟩
  | .local _ .vmem, ⟨1, _⟩ => ⟨S1x1x1024x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x1024x2048, .i32⟩
  | .local _ .vmem, ⟨7, _⟩ => ⟨S1x1x1024x2048, .i32⟩
  | .local _ .vmem, ⟨8, _⟩ => ⟨S1x1x1024x64, .f32⟩
  | .local _ .vmem, ⟨9, _⟩ => ⟨S1x1x1024x64, .f32⟩
  | .local _ .vmem, ⟨10, _⟩ => ⟨S1x1x1024x2048, .f32⟩
  | .local _ .vmem, ⟨11, _⟩ => ⟨S1x1x1024x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 16, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  natLt_1_32 : 1 < 32
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x1024x2048_S1x1x1024x2048_0_0_0_0 : ∀ a, (![0, 0, 0, 0] : Fin 4 → Nat) a + S1x1x1024x2048.size a ≤ S1x1x1024x2048.size a
  h_S1x1x1024x2048 : 0 < S1x1x1024x2048.numel
  shapeCasts_S1x1x1024x2048_S1024x2048 : S1x1x1024x2048.ShapeCasts S1024x2048
  reduces_S1024x2048_S1024 : S1024x2048.Reduces [1] S1024
  shapeCasts_S1024_S1024x1 : S1024.ShapeCasts S1024x1
  broadcasts_S1024x1_S1024x2048 : S1024x1.Broadcasts S1024x2048
  shapeCasts_S1024x2048_S1x1x1024x2048 : S1024x2048.ShapeCasts S1x1x1024x2048
  shapeCasts_S1024x64_S1x1x1024x64 : S1024x64.ShapeCasts S1x1x1024x64
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x64.size a ≤ S2x16x2048x64.size a
  hwx0_0 : ∀ i : grid0.Coords, EltTy.bits .f32 = 32 ∨ (Rect.block (s := S2x16x2048x64) S1x1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .f32 = 32 ∨ (Rect.block (s := S2x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024x2048.size a ≤ S2x16x2048x2048.size a
  hwx0_3 : ∀ i : grid0.Coords, EltTy.bits .i32 = 32 ∨ (Rect.block (s := S2x16x2048x2048) S1x1x1024x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024x64.size a ≤ S2x16x2048x64.size a
  hwx0_4 : ∀ i : grid0.Coords, EltTy.bits .f32 = 32 ∨ (Rect.block (s := S2x16x2048x64) S1x1x1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024x2048.size a ≤ S2x16x2048x2048.size a
  hwx0_5 : ∀ i : grid0.Coords, EltTy.bits .f32 = 32 ∨ (Rect.block (s := S2x16x2048x2048) S1x1x1024x2048.size (cc0_transform_5 i) (hinb0_5 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1x1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x1x1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x1x1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .i1⟩
  | .hbm, ⟨4, _⟩ => ⟨S2x16x2048x2048, .f32⟩
  | .hbm, ⟨5, _⟩ => ⟨S_, .f32⟩
  | .hbm, ⟨6, _⟩ => ⟨S2x16x2048x2048, .f32⟩
  | .hbm, ⟨7, _⟩ => ⟨S2x16x2048x2048, .f32⟩
  | .hbm, ⟨8, _⟩ => ⟨S_, .f32⟩
  | .hbm, ⟨9, _⟩ => ⟨S2x16x2048x2048, .f32⟩
  | .hbm, ⟨10, _⟩ => ⟨S2x16x2048x2048, .f32⟩
  | .hbm, ⟨11, _⟩ => ⟨S_, .f32⟩
  | .hbm, ⟨12, _⟩ => ⟨S2x16x2048, .f32⟩
  | .hbm, ⟨13, _⟩ => ⟨S_, .f32⟩
  | .hbm, ⟨14, _⟩ => ⟨S2x16x2048, .f32⟩
  | .hbm, ⟨15, _⟩ => ⟨S2x16x2048, .f32⟩
  | .hbm, ⟨16, _⟩ => ⟨S2x16x2048x1, .f32⟩
  | .hbm, ⟨17, _⟩ => ⟨S2x16x2048x2048, .f32⟩
  | .hbm, ⟨18, _⟩ => ⟨S2x16x2048x2048, .f32⟩
  | .hbm, ⟨19, _⟩ => ⟨S2x16x2048x2048, .f32⟩
  | .hbm, ⟨20, _⟩ => ⟨S_, .f32⟩
  | .hbm, ⟨21, _⟩ => ⟨S2x16x2048, .f32⟩
  | .hbm, ⟨22, _⟩ => ⟨S2x16x2048x1, .f32⟩
  | .hbm, ⟨23, _⟩ => ⟨S2x16x2048x2048, .f32⟩
  | .hbm, ⟨24, _⟩ => ⟨S2x16x2048x2048, .f32⟩
  | .hbm, ⟨25, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.AttnSpec.lean ====
/-
  Scaled dot-product attention with a boolean mask, as functions on the extended reals read index by index.

  For a batch b, a head h and a query position q, the score against key position k is the dot product of query row q
  and key row k over the 64 features, times one eighth, and is replaced by the constant -10^9 wherever the mask is set.
  A row's weights are the exponentials of its scores less the row's largest score (the maximum taken from minus
  infinity), each divided by the sum of those exponentials along the row; the output row is the combination of the
  value rows with those weights. The two results are the weights, [2,16,2048,2048], and the combination, [2,16,2048,64].
-/
import Idealize.ShloMosaic.PureOps.Ideal
import Idealize.ShloMosaic.Lib.ValueIdx

noncomputable section

namespace Cert.Attn

open Idealize.ShloMosaic Idealize.ShloMosaic.ValueIdx

/-- Queries, keys and values: batch, head, position, feature. -/
abbrev Sx : Shape := ⟨4, ![2, 16, 2048, 64]⟩
/-- Masks and weights: batch, head, query position, key position. -/
abbrev Sw : Shape := ⟨4, ![2, 16, 2048, 2048]⟩

variable (Q K V : FVec Ideal Sx .f32) (M : IVec Sw 1)

/-- The masked, scaled score of query position `q` against key position `k`. -/
def score (b : Fin 2) (h : Fin 16) (q k : Fin 2048) : EReal :=
  Scalar.select (M (ix4 b h q k)) (Ideal.ofBits .f32 0xCE6E6B28#32)
    ((∑ d : Fin 64, Q (ix4 b h q d) * K (ix4 b h k d)) * Ideal.ofBits .f32 0x3E000000#32)

/-- The largest score of a query row, the maximum started from minus infinity. -/
def rowMax (b : Fin 2) (h : Fin 16) (q : Fin 2048) : EReal :=
  (Finset.univ : Finset (Fin 2048)).fold max (Ideal.ofBits .f32 0xFF800000#32) (fun k => score Q K M b h q k)

/-- The exponential of a score less its row's largest score. -/
def expo (b : Fin 2) (h : Fin 16) (q k : Fin 2048) : EReal :=
  Ideal.exp (score Q K M b h q k - rowMax Q K M b h q)

/-- The weight of key position `k` in query row `q`: its exponential over the row's sum of exponentials. -/
def weight (b : Fin 2) (h : Fin 16) (q k : Fin 2048) : EReal :=
  Ideal.div (expo Q K M b h q k) (∑ k' : Fin 2048, expo Q K M b h q k')

/-- The array of weights. -/
def attn : FVec Ideal Sw .f32 := fun i => weight Q K M (i 0) (i 1) (i 2) (i 3)

/-- The array of output rows: each the combination of the value rows with the query row's weights. -/
def prob : FVec Ideal Sx .f32 := fun i =>
  ∑ k : Fin 2048, weight Q K M (i 0) (i 1) (i 2) k * V (ix4 (i 0) (i 1) k (i 3))

theorem attn_apply (b : Fin 2) (h : Fin 16) (q k : Fin 2048) : attn Q K M (ix4 b h q k) = weight Q K M b h q k := rfl

theorem prob_apply (b : Fin 2) (h : Fin 16) (q : Fin 2048) (d : Fin 64) :
    prob Q K V M (ix4 b h q d) = ∑ k : Fin 2048, weight Q K M b h q k * V (ix4 b h k d) := rfl

end Cert.Attn

end
-- ==== Proof.LibRowMax.lean ====
/-
  The maximum along the last axis of an array of extended reals, read at an index: the fold of `max` over the
  entries along that axis, started from the value the initial pattern denotes. Stated for the kernel-side
  reduction of an [a, b] array to [a] and for the host-side reduction of an [a, b, c] array to [a, b]; both are
  folds over the same finite set of positions, so a row maximum taken on a tile and the one taken on the whole
  array meet in one expression.
-/
import Idealize.ShloMosaic.PureOps.Ideal.Laws
import Idealize.ShloMosaic.Lib.ValueIdx

noncomputable section

namespace Cert.Lib.RowMax

open Idealize.ShloMosaic Idealize.ShloMosaic.ValueIdx

/-- A maximum over the last axis of an `[a, b]` array, read at `r`: the fold of `max` over row `r`. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (fun f : Fin b → EReal => (Finset.univ : Finset (Fin b)).fold max (Ideal.ofBits φ acc) f)
    (funext fun k => congrArg src (funext fun ax => Fin.ext (by
      match ax with
      | ⟨0, _⟩ => rfl
      | ⟨1, _⟩ => rfl)))

/-- The same for a single-precision array whose printed initial pattern is minus infinity's, the proof argument
    typed as printed. -/
theorem rowMax_f32_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (r : Fin a) :
    multiReduction .maximumf [1] ⟨1, ![a]⟩ src 0xFF800000#32 h hφ hacc (ix1 r)
      = (Finset.univ : Finset (Fin b)).fold max (Ideal.ofBits .f32 0xFF800000#32) (fun k => src (ix2 r k)) :=
  rowMax_apply src _ h hφ hacc r

/-- The host's reduction by `max` over the last axis of an `[a, b, c]` array from a scalar initial value, read at
    `(p, q)`: the fold of `max` over the entries `(p, q, ·)`. -/
theorem hostRowMax3_apply {a b c : ℕ} {φ : FTy} (x : FVec Ideal ⟨3, ![a, b, c]⟩ φ) (init : (⟨0, ![]⟩ : Shape).Idx → Ideal φ)
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) (p : Fin a) (q : Fin b) :
    Host.reduce FloatOps.maximumf x init h' hu (ix2 p q)
      = (Finset.univ : Finset (Fin c)).fold max (init ix0) (fun k => x (ix3 p q k)) := by
  refine (Host.reduce_eq_fold_single FloatOps.maximumf x init h' h hu (ix2 p q)).trans ?_
  have e0 : init (Shape.Idx.first hu) = init ix0 := congrArg init (funext fun ax => ax.elim0)
  rw [e0]
  exact congrArg (fun f : Fin c → EReal => (Finset.univ : Finset (Fin c)).fold max (init ix0) f)
    (funext fun k => congrArg x (funext fun ax => Fin.ext (by
      match ax with
      | ⟨0, _⟩ => rfl
      | ⟨1, _⟩ => rfl
      | ⟨2, _⟩ => rfl)))

/-- A fold of `max` started from `b` is at least `b`, so taking the maximum with `b` once more changes nothing. -/
theorem max_fold_self {n : ℕ} (b : EReal) (s : Fin n → EReal) :
    max b ((Finset.univ : Finset (Fin n)).fold max b s) = (Finset.univ : Finset (Fin n)).fold max b s :=
  max_eq_right ((Finset.le_fold_max b).2 (Or.inl le_rfl))

end Cert.Lib.RowMax

end
-- ==== Proof.LibRowMax4.lean ====
/-
  The host's reduction by `max` over the last axis of a rank-4 array of extended reals from a scalar initial value,
  read at an index (p, q, r): the fold of `max` over the entries (p, q, r, ·), started from the initial value.
-/
import Idealize.ShloMosaic.PureOps.Ideal.Laws
import Idealize.ShloMosaic.Lib.ValueIdx

noncomputable section

namespace Cert.Lib.RowMax4

open Idealize.ShloMosaic Idealize.ShloMosaic.ValueIdx

/-- The host's maximum over the last axis of an `[a, b, c, d]` array, read at `(p, q, r)`. -/
theorem hostRowMax4_apply {a b c d : ℕ} {φ : FTy} (x : FVec Ideal ⟨4, ![a, b, c, d]⟩ φ) (init : (⟨0, ![]⟩ : Shape).Idx → Ideal φ)
    (h' : (⟨4, ![a, b, c, d]⟩ : Shape).ReducesTo [3] ⟨3, ![a, b, c]⟩) (h : (⟨4, ![a, b, c, d]⟩ : Shape).Reduces [3] ⟨3, ![a, b, c]⟩)
    (hu : 0 < (⟨0, ![]⟩ : Shape).numel) (p : Fin a) (q : Fin b) (r : Fin c) :
    Host.reduce FloatOps.maximumf x init h' hu (ix3 p q r)
      = (Finset.univ : Finset (Fin d)).fold max (init ix0) (fun k => x (ix4 p q r k)) := by
  refine (Host.reduce_eq_fold_single FloatOps.maximumf x init h' h hu (ix3 p q r)).trans ?_
  have e0 : init (Shape.Idx.first hu) = init ix0 := congrArg init (funext fun ax => ax.elim0)
  rw [e0]
  exact congrArg (fun f : Fin d → EReal => (Finset.univ : Finset (Fin d)).fold max (init ix0) f)
    (funext fun k => congrArg x (funext fun ax => Fin.ext (by
      match ax with
      | ⟨0, _⟩ => rfl
      | ⟨1, _⟩ => rfl
      | ⟨2, _⟩ => rfl
      | ⟨3, _⟩ => rfl)))

end Cert.Lib.RowMax4

end
-- ==== Proof.RefAttn.lean ====
/-
  The reference's two results, read at an index, are the weights and the outputs of the attention specification.

  Each of its operations is read at an index through the generated stage lemmas. The score stage is the select between
  the constant -10^9 and an eighth of the query row's dot product with the key row. The row maximum is the host's
  fold of `max` along the key axis from minus infinity, and the extra maximum with minus infinity that follows it
  changes nothing, a fold started at minus infinity being at least minus infinity. The row sum starts from the zero
  constant, which adds nothing. The last stage contracts the weights' key axis with the value rows.
-/
import proofs.«131580_j28673201668215_2_alg».proof.Proof.Gen.ReferenceIdeal.Read
import proofs.«131580_j28673201668215_2_alg».proof.Proof.AttnSpec
import proofs.«131580_j28673201668215_2_alg».proof.Proof.LibRowMax
import proofs.«131580_j28673201668215_2_alg».proof.Proof.LibRowMax4

noncomputable section

namespace Cert.ReferenceIdeal.RefValue

open Cert.ReferenceIdeal Cert.ReferenceIdeal.Gen Cert.ReferenceIdeal.Read
open Idealize.ShloMosaic Idealize.ShloMosaic.ValueIdx Cert.Attn

variable (x0 x1 x2 : (⟨S2x16x2048x64, .f32⟩ : BufTy).Contents (Elt Ideal))
variable (x3 : (⟨S2x16x2048x2048, .i1⟩ : BufTy).Contents (Elt Ideal))

/-! ## Where each stage reads its operand -/

theorem lidx_score (b : Fin 2) (h : Fin 16) (q k : Fin 2048) (d : Fin 64) :
    lidx_main_v0 (ix4 b h q k) d = ix4 b h q d := funext fun a => Fin.ext (by match a with | ⟨0, _⟩ => rfl | ⟨1, _⟩ => rfl | ⟨2, _⟩ => rfl | ⟨3, _⟩ => rfl)

theorem ridx_score (b : Fin 2) (h : Fin 16) (q k : Fin 2048) (d : Fin 64) :
    ridx_main_v0 (ix4 b h q k) d = ix4 b h k d := funext fun a => Fin.ext (by match a with | ⟨0, _⟩ => rfl | ⟨1, _⟩ => rfl | ⟨2, _⟩ => rfl | ⟨3, _⟩ => rfl)

theorem idx_rowmax (b : Fin 2) (h : Fin 16) (q k : Fin 2048) :
    idx_main_v7 (idx_main_v8 (ix4 b h q k)) = ix3 b h q := funext fun a => Fin.ext (by match a with | ⟨0, _⟩ => rfl | ⟨1, _⟩ => rfl | ⟨2, _⟩ => rfl)

theorem idx_rowsum (b : Fin 2) (h : Fin 16) (q k : Fin 2048) :
    idx_main_v12 (idx_main_v13 (ix4 b h q k)) = ix3 b h q := funext fun a => Fin.ext (by match a with | ⟨0, _⟩ => rfl | ⟨1, _⟩ => rfl | ⟨2, _⟩ => rfl)

theorem idx_summand (b : Fin 2) (h : Fin 16) (q k : Fin 2048) :
    idx_main_v11 (ix3 b h q) k = ix4 b h q k := funext fun a => Fin.ext (by match a with | ⟨0, _⟩ => rfl | ⟨1, _⟩ => rfl | ⟨2, _⟩ => rfl | ⟨3, _⟩ => rfl)

theorem lidx_out (b : Fin 2) (h : Fin 16) (q : Fin 2048) (d : Fin 64) (k : Fin 2048) :
    lidx_main_v15 (ix4 b h q d) k = ix4 b h q k := funext fun a => Fin.ext (by match a with | ⟨0, _⟩ => rfl | ⟨1, _⟩ => rfl | ⟨2, _⟩ => rfl | ⟨3, _⟩ => rfl)

theorem ridx_out (b : Fin 2) (h : Fin 16) (q : Fin 2048) (d : Fin 64) (k : Fin 2048) :
    ridx_main_v15 (ix4 b h q d) k = ix4 b h k d := funext fun a => Fin.ext (by match a with | ⟨0, _⟩ => rfl | ⟨1, _⟩ => rfl | ⟨2, _⟩ => rfl | ⟨3, _⟩ => rfl)

/-! ## The stages at an index -/

/-- The select stage is the masked, scaled score. -/
theorem score_stage (b : Fin 2) (h : Fin 16) (q k : Fin 2048) :
    val_main_v3 (F := Ideal) x0 x1 x3 (ix4 b h q k) = score x0 x1 x3 b h q k := by
  rw [val_main_v3_apply, val_main_call0_v0_apply, val_main_cst_0_apply, val_main_v2_apply, val_main_v0_apply,
    val_main_v1_apply, val_main_cst_apply]
  simp only [lidx_score, ridx_score]
  rfl

/-- The maximum with minus infinity of the host's row maximum is the row's largest score. -/
theorem rowmax_stage (b : Fin 2) (h : Fin 16) (q : Fin 2048) :
    val_main_v6 (F := Ideal) x0 x1 x3 (ix3 b h q) = rowMax x0 x1 x3 b h q := by
  rw [val_main_v6_apply, val_main_v5_apply, val_main_cst_2_apply]
  unfold val_main_v4
  rw [Cert.Lib.RowMax4.hostRowMax4_apply (val_main_v3 (F := Ideal) x0 x1 x3) (val_main_cst_1 (F := Ideal))
    reducesTo_S2x16x2048x2048_S2x16x2048_d3 (by decide) h_S_ b h q]
  simp only [score_stage]
  exact Cert.Lib.RowMax.max_fold_self _ _

/-- The row maximum repeated along the key axis. -/
theorem rowmax_bcast_stage (b : Fin 2) (h : Fin 16) (q k : Fin 2048) :
    val_main_v8 (F := Ideal) x0 x1 x3 (ix4 b h q k) = rowMax x0 x1 x3 b h q := by
  rw [val_main_v8_apply, val_main_v7_apply, idx_rowmax, rowmax_stage]

/-- The exponential stage. -/
theorem expo_stage (b : Fin 2) (h : Fin 16) (q k : Fin 2048) :
    val_main_v10 (F := Ideal) x0 x1 x3 (ix4 b h q k) = expo x0 x1 x3 b h q k := by
  rw [val_main_v10_apply, val_main_v9_apply, score_stage, rowmax_bcast_stage]
  rfl

/-- The row sum: the zero it starts from adds nothing. -/
theorem rowsum_stage (b : Fin 2) (h : Fin 16) (q : Fin 2048) :
    val_main_v11 (F := Ideal) x0 x1 x3 (ix3 b h q) = ∑ k : Fin 2048, expo x0 x1 x3 b h q k := by
  rw [val_main_v11_apply, val_main_cst_3_apply]
  simp only [idx_summand, expo_stage]
  show Ideal.ofBits .f32 0x00000000#32 + _ = _
  rw [Ideal.ofBits_zero_f32, zero_add]

/-- The quotient stage is the weight. -/
theorem weight_stage (b : Fin 2) (h : Fin 16) (q k : Fin 2048) :
    val_main_v14 (F := Ideal) x0 x1 x3 (ix4 b h q k) = weight x0 x1 x3 b h q k := by
  rw [val_main_v14_apply, expo_stage, val_main_v13_apply, val_main_v12_apply, idx_rowsum, rowsum_stage]
  rfl

/-- The last product contracts the key axis of the weights with the value rows. -/
theorem out_stage (b : Fin 2) (h : Fin 16) (q : Fin 2048) (d : Fin 64) :
    val_main_v15 (F := Ideal) x0 x1 x2 x3 (ix4 b h q d) = ∑ k : Fin 2048, weight x0 x1 x3 b h q k * x2 (ix4 b h k d) := by
  rw [val_main_v15_apply]
  simp only [lidx_out, ridx_out, weight_stage]

/-! ## The two results as whole arrays -/

theorem weights_eq : val_main_v14 (F := Ideal) x0 x1 x3 = attn x0 x1 x3 := by
  funext i
  obtain ⟨b, h, q, k, rfl⟩ : ∃ (b : Fin 2) (h : Fin 16) (q k : Fin 2048), i = ix4 b h q k := ⟨i 0, i 1, i 2, i 3, eq_ix4 i⟩
  exact weight_stage x0 x1 x3 b h q k

theorem outputs_eq : val_main_v15 (F := Ideal) x0 x1 x2 x3 = prob x0 x1 x2 x3 := by
  funext i
  obtain ⟨b, h, q, d, rfl⟩ : ∃ (b : Fin 2) (h : Fin 16) (q : Fin 2048) (d : Fin 64), i = ix4 b h q d := ⟨i 0, i 1, i 2, i 3, eq_ix4 i⟩
  exact out_stage x0 x1 x2 x3 b h q d

end Cert.ReferenceIdeal.RefValue

end
-- ==== Proof.LibRowOps.lean ====
/-
  Layout operations on arrays of rows, read at an index.

  A row-wise sum, the column-vector forms of a reshape and of a broadcast, the two pieces of a
  concatenation along the last axis, and the plain matrix product into a zero accumulator — each read at
  `(r, c)` as the operand's elements it depends on.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.Lib.RowOps

open Idealize.ShloMosaic Idealize.ShloMosaic.ValueIdx

variable {α : Type}

/-- A length-`a` vector reshaped to a column `[a, 1]` reads, at `(r, 0)`, the vector at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast to `[a, b]` reads, at `(r, c)`, the column at `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Two arrays joined along the last axis: a column below the first extent is the first array's. -/
theorem concat_cols_left {a b₁ b₂ : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b₁ + b₂]⟩ 1) (r : Fin a) (c : Fin (b₁ + b₂)) (hc : c.val < b₁) :
    concatenate ⟨2, ![a, b₁ + b₂]⟩ 1 [⟨⟨2, ![a, b₁]⟩, x₁⟩, ⟨⟨2, ![a, b₂]⟩, x₂⟩] h (ix2 r c) = x₁ (ix2 r ⟨c.val, hc⟩) :=
  concatenate_pair_apply_left 1 x₁ x₂ h (ix2 r c) rfl (ix2 r ⟨c.val, hc⟩) (fun b => by
    match b with
    | ⟨0, _⟩ => rfl
    | ⟨1, _⟩ => rfl)

/-- … and a column from the first extent on is the second array's, the first extent less. -/
theorem concat_cols_right {a b₁ b₂ : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b₁ + b₂]⟩ 1) (r : Fin a) (c : Fin (b₁ + b₂)) (c' : Fin b₂)
    (hc : c'.val + b₁ = c.val) :
    concatenate ⟨2, ![a, b₁ + b₂]⟩ 1 [⟨⟨2, ![a, b₁]⟩, x₁⟩, ⟨⟨2, ![a, b₂]⟩, x₂⟩] h (ix2 r c) = x₂ (ix2 r c') :=
  concatenate_pair_apply_right 1 x₁ x₂ h (ix2 r c) rfl rfl (ix2 r c') (fun b hb => by
    match b with
    | ⟨0, _⟩ => rfl
    | ⟨1, _⟩ => exact absurd rfl hb) hc

/-- A length-`b` vector broadcast to a one-row array `[1, b]` along its second axis reads, at `(u, c)`, the vector at `c`. -/
theorem bcastInDim_b_1b {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row array `[1, b]` broadcast to `[a, b]` axis by axis reads, at `(p, c)`, the row at `c`. -/
theorem bcastInDim_1b_ab {a b : ℕ} (x : (⟨2, ![1, b]⟩ : Shape).Idx → α) (h : (⟨2, ![1, b]⟩ : Shape).BroadcastsInDim ⟨2, ![a, b]⟩ ![0, 1])
    (p : Fin a) (c : Fin b) : broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A column `[a, 1]` broadcast to `[a, b]` axis by axis reads, at `(p, c)`, the column at `p`. -/
theorem bcastInDim_a1_ab {a b : ℕ} (x : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- A length-`a` vector broadcast to a column `[a, 1]` along its first axis reads, at `(p, u)`, the vector at `p`. -/
theorem bcastInDim_a_a1 {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A scalar broadcast to any shape reads the scalar everywhere. -/
theorem bcastInDim_scalar {t : Shape} (x : (⟨0, ![]⟩ : Shape).Idx → α) (h : (⟨0, ![]⟩ : Shape).BroadcastsInDim t ![]) (i : t.Idx) :
    broadcastInDim t ![] h x i = x ix0 :=
  broadcastInDim_apply _ h x i ix0 fun ax => ax.elim0

/-- A sum over the last axis of an `[a, b]` array of extended reals, read at `r`: the row's sum. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- The same for a single-precision array whose printed accumulator is the zero pattern, the proof argument typed as printed. -/
theorem rowSum_f32_apply {a b : ℕ} (src : FVec Ideal ⟨2, ![a, b]⟩ .f32)
    (h : (⟨2, ![a, b]⟩ : Shape).Reduces [1] ⟨1, ![a]⟩) (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) :=
  rowSum_apply src _ h hφ hacc r

/-- The plain product of an `m×k` by a `k×n` matrix accumulated into zeros, read at `(a, b)` on the extended reals. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  have e : matmul (DotDims.plain m k n) prec A B (constant ⟨2, ![m, n]⟩ .f32 0x00000000#32) (ix2 a b)
      = Host.dotGeneral (DotDims.plain m k n) prec A B (ix2 a b) := by
    show FloatOps.matmul _ prec A B _ (ix2 a b) = FloatOps.dotGeneral _ prec _ A B (ix2 a b)
    rw [Ideal.matmul_constant_zero_apply, Ideal.dotGeneral_apply]
  rw [e]
  exact StackMember.dotGeneral_plain_apply prec A B a b

end Cert.Lib.RowOps

end
-- ==== Proof.LibSoftmaxRows.lean ====
/-
  A row softmax of an [a, b] array of extended reals in its usual five steps — row maximum, subtraction, exponential,
  row sum, division — with the row statistics laid out as a column [a, 1] and repeated along each row, read at an
  index (r, k): the exponential of the entry less the row's maximum, over the sum of those exponentials along the row.
-/
import Idealize.ShloMosaic.PureOps.Ideal.Laws
import Idealize.ShloMosaic.Lib.ValueIdx
import proofs.«131580_j28673201668215_2_alg».proof.Proof.LibRowOps
import proofs.«131580_j28673201668215_2_alg».proof.Proof.LibRowMax

noncomputable section

namespace Cert.Lib.SoftmaxRows

open Idealize.ShloMosaic Idealize.ShloMosaic.ValueIdx Cert.Lib.RowOps Cert.Lib.RowMax

/-- A vector of row statistics laid out as a column and repeated along each row reads, at `(r, c)`, the statistic of row `r`. -/
theorem keepdims_apply {α : Type} {a b : ℕ} (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (r : Fin a) (c : Fin b) :
    broadcastTo ⟨2, ![a, b]⟩ (shapeCast ⟨2, ![a, 1]⟩ v hc) hb (ix2 r c) = v (ix1 r) :=
  (broadcastTo_a1_ab_apply _ hb r c).trans (shapeCast_a_a1_apply v hc r 0)

/-- The five-step row softmax read at `(r, k)`. -/
theorem softmax_rows_apply {a b : ℕ} (s : FVec Ideal ⟨2, ![a, b]⟩ .f32)
    (hr : (⟨2, ![a, b]⟩ : Shape).Reduces [1] ⟨1, ![a]⟩) (hφ : FKind.Formats .f32)
    (hmax : (0xFF800000#32 : BitVec 32) = 0xFF800000#32) (hadd : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (r : Fin a) (k : Fin b) :
    divf
        (exp (subf s (broadcastTo ⟨2, ![a, b]⟩ (shapeCast ⟨2, ![a, 1]⟩
          (multiReduction .maximumf [1] ⟨1, ![a]⟩ s 0xFF800000#32 hr hφ hmax) hc) hb)))
        (broadcastTo ⟨2, ![a, b]⟩ (shapeCast ⟨2, ![a, 1]⟩
          (multiReduction .add [1] ⟨1, ![a]⟩
            (exp (subf s (broadcastTo ⟨2, ![a, b]⟩ (shapeCast ⟨2, ![a, 1]⟩
              (multiReduction .maximumf [1] ⟨1, ![a]⟩ s 0xFF800000#32 hr hφ hmax) hc) hb)))
            0x00000000#32 hr hφ hadd) hc) hb)
        (ix2 r k)
      = Ideal.div
          (Ideal.exp (s (ix2 r k) - (Finset.univ : Finset (Fin b)).fold max (Ideal.ofBits .f32 0xFF800000#32) (fun k' => s (ix2 r k'))))
          (∑ k' : Fin b, Ideal.exp (s (ix2 r k')
            - (Finset.univ : Finset (Fin b)).fold max (Ideal.ofBits .f32 0xFF800000#32) (fun k'' => s (ix2 r k'')))) := by
  have hM : ∀ k' : Fin b,
      broadcastTo ⟨2, ![a, b]⟩ (shapeCast ⟨2, ![a, 1]⟩
          (multiReduction .maximumf [1] ⟨1, ![a]⟩ s 0xFF800000#32 hr hφ hmax) hc) hb (ix2 r k')
        = (Finset.univ : Finset (Fin b)).fold max (Ideal.ofBits .f32 0xFF800000#32) (fun k'' => s (ix2 r k'')) :=
    fun k' => (keepdims_apply _ hc hb r k').trans (rowMax_f32_apply s hr hφ hmax r)
  have hE : ∀ k' : Fin b,
      exp (subf s (broadcastTo ⟨2, ![a, b]⟩ (shapeCast ⟨2, ![a, 1]⟩
          (multiReduction .maximumf [1] ⟨1, ![a]⟩ s 0xFF800000#32 hr hφ hmax) hc) hb)) (ix2 r k')
        = Ideal.exp (s (ix2 r k') - (Finset.univ : Finset (Fin b)).fold max (Ideal.ofBits .f32 0xFF800000#32) (fun k'' => s (ix2 r k''))) :=
    fun k' => congrArg (fun m => Ideal.exp (s (ix2 r k') - m)) (hM k')
  refine (congrArg (Ideal.div _) ((keepdims_apply _ hc hb r k).trans (rowSum_f32_apply _ hr hφ hadd r))).trans ?_
  rw [hE k]
  exact congrArg (Ideal.div _) (Finset.sum_congr rfl fun k' _ => hE k')

end Cert.Lib.SoftmaxRows

end
-- ==== Proof.LibMatmulSum.lean ====
/-
  The matrix unit's product with ONE contracted axis into a zero accumulator, on the extended reals and whatever
  precision it is asked for, read at an index as a plain sum over that axis: the caller names the two operands'
  indices at contraction position k, and the sum is re-indexed by the axis's one coordinate.
-/
import Idealize.ShloMosaic.Lib.ValueIdx
import Idealize.ShloMosaic.PureOps.Ideal.Laws

namespace Cert.Lib.MatmulSum

open Idealize.ShloMosaic Idealize.ShloMosaic.ValueIdx

/-- A product into zeros at an output index is the sum over the contracted axis of the operands' products, each read
    where the dimension numbers put it. -/
theorem matmul_zero_eq_sum {sl sr so : Shape} {φ₁ φ₂ : FTy} (d : DotDims sl sr so) (prec : Option ContractPrecision)
    (K : Nat) (hr : d.contr.rank = 1) (hs : d.contr.size ⟨0, by omega⟩ = K)
    (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    matmul d prec x w (constant so .f32 0x00000000#32) j = ∑ k : Fin K, x (li k) * w (ri k) := by
  show FloatOps.matmul d prec x w (constant so .f32 0x00000000#32) j = _
  rw [Ideal.matmul_constant_zero_apply, ← Equiv.sum_comp (contrEquiv1 d K hr hs).symm]
  exact Finset.sum_congr rfl fun k _ => by rw [hl k, hw k]

end Cert.Lib.MatmulSum
-- ==== Proof.LibUnitAxes.lean ====
/-
  A block `[1, 1, a, b]` viewed as the matrix `[a, b]` (a reshape that drops two leading unit axes) reads, at
  `(r, k)`, the block at `(0, 0, r, k)`: both positions are the same place in row-major order.
-/
import Idealize.ShloMosaic.Lib.ValueIdx
import Idealize.ShloMosaic.Lib.Pipeline.Value

namespace Cert.Lib.UnitAxes

open Idealize.ShloMosaic Idealize.ShloMosaic.ValueIdx

theorem dropUnits_apply {α : Type} {a b : ℕ} (x : (⟨4, ![1, 1, a, b]⟩ : Shape).Idx → α)
    (h : (⟨4, ![1, 1, a, b]⟩ : Shape).ShapeCasts ⟨2, ![a, b]⟩) (r : Fin a) (k : Fin b) :
    shapeCast ⟨2, ![a, b]⟩ x h (ix2 r k) = x (ix4 (0 : Fin 1) (0 : Fin 1) r k) :=
  shapeCast_apply x h _ _ (by
    rw [Shape.rowMajor_val_two, Shape.rowMajor_val_four]
    show ((0 * 1 + 0) * a + r.val) * b + k.val = r.val * b + k.val
    simp only [Nat.zero_mul, Nat.zero_add])

end Cert.Lib.UnitAxes
-- ==== Proof.LibMaskBit.lean ====
/-
  A one-bit mask widened to a 32-bit word and compared with zero for inequality gives the mask bit back: the word is
  1 or 0 as the bit is.
-/
import Idealize.ShloMosaic.PureOps.Ideal

namespace Cert.Lib.MaskBit

open Idealize.ShloMosaic

theorem ne_zero_setWidth (x : BitVec 1) : IntOp.cmpi .ne (x.setWidth 32) 0#32 = x := by
  rcases BitVec.eq_zero_or_eq_one x with h | h <;> subst h <;> rfl

end Cert.Lib.MaskBit
-- ==== Proof.KernelBlock.lean ====
/-
  What the kernel's body computes on the blocks of one grid point, read at an index.

  The body sees a block of 1024 query rows, the whole key and value blocks of one batch and head (2048 rows each), and
  the matching 1024 x 2048 block of the mask widened to words. Row r of its score block is the dot product of query
  row r with every key row, times one eighth, with -10^9 where the mask word is not zero; the row's weights are the
  exponentials of its scores less the row's largest, over their sum; and row r of the output block is the combination
  of the value rows with those weights. When the blocks are the rows of the arrays at one batch and head — query row r
  of the block being query position `qOf r` of the array — these are the specification's weights and outputs there.
-/
import proofs.«131580_j28673201668215_2_alg».proof.Proof.Gen.KernelIdeal.Skeleton
import proofs.«131580_j28673201668215_2_alg».proof.Proof.AttnSpec
import proofs.«131580_j28673201668215_2_alg».proof.Proof.LibSoftmaxRows
import proofs.«131580_j28673201668215_2_alg».proof.Proof.LibMatmulSum
import proofs.«131580_j28673201668215_2_alg».proof.Proof.LibUnitAxes
import proofs.«131580_j28673201668215_2_alg».proof.Proof.LibMaskBit

noncomputable section

namespace Cert.KernelIdeal.Block

open Cert.KernelIdeal Cert.KernelIdeal.Gen Idealize.ShloMosaic Idealize.ShloMosaic.ValueIdx Cert.Attn
open Cert.Lib.UnitAxes

/-! ## The two products' operand indices -/

theorem scores_lhs0 (j : S1024x2048.Idx) (c : dot_S1024x64_S2048x64_S1024x2048_1_1_0_0_n_n.contr.Idx) : (dot_S1024x64_S2048x64_S1024x2048_1_1_0_0_n_n.lhsIdx j c 0).val = (j 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
theorem scores_lhs1 (j : S1024x2048.Idx) (c : dot_S1024x64_S2048x64_S1024x2048_1_1_0_0_n_n.contr.Idx) : (dot_S1024x64_S2048x64_S1024x2048_1_1_0_0_n_n.lhsIdx j c 1).val = (c ⟨0, by decide⟩).val :=
  dot_S1024x64_S2048x64_S1024x2048_1_1_0_0_n_n.lhsIdx_val_of_single rfl j c
theorem scores_rhs0 (j : S1024x2048.Idx) (c : dot_S1024x64_S2048x64_S1024x2048_1_1_0_0_n_n.contr.Idx) : (dot_S1024x64_S2048x64_S1024x2048_1_1_0_0_n_n.rhsIdx j c 0).val = (j 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
theorem scores_rhs1 (j : S1024x2048.Idx) (c : dot_S1024x64_S2048x64_S1024x2048_1_1_0_0_n_n.contr.Idx) : (dot_S1024x64_S2048x64_S1024x2048_1_1_0_0_n_n.rhsIdx j c 1).val = (c ⟨0, by decide⟩).val :=
  dot_S1024x64_S2048x64_S1024x2048_1_1_0_0_n_n.rhsIdx_val_of_single rfl j c

/-- The score product at `(r, k)` reads the query block at `(r, d)` … -/
theorem scores_lhs (r : Fin 1024) (k : Fin 2048) (d : Fin 64) :
    dot_S1024x64_S2048x64_S1024x2048_1_1_0_0_n_n.lhsIdx (ix2 r k) ((contrEquiv1 dot_S1024x64_S2048x64_S1024x2048_1_1_0_0_n_n 64 rfl rfl).symm d) = ix2 r d :=
  funext fun a => Fin.ext (by
    match a with
    | ⟨0, _⟩ => exact scores_lhs0 _ _
    | ⟨1, _⟩ => exact (scores_lhs1 _ _).trans (contrEquiv1_symm_val dot_S1024x64_S2048x64_S1024x2048_1_1_0_0_n_n 64 rfl rfl d))
/-- … and the key block at `(k, d)`. -/
theorem scores_rhs (r : Fin 1024) (k : Fin 2048) (d : Fin 64) :
    dot_S1024x64_S2048x64_S1024x2048_1_1_0_0_n_n.rhsIdx (ix2 r k) ((contrEquiv1 dot_S1024x64_S2048x64_S1024x2048_1_1_0_0_n_n 64 rfl rfl).symm d) = ix2 k d :=
  funext fun a => Fin.ext (by
    match a with
    | ⟨0, _⟩ => exact scores_rhs0 _ _
    | ⟨1, _⟩ => exact (scores_rhs1 _ _).trans (contrEquiv1_symm_val dot_S1024x64_S2048x64_S1024x2048_1_1_0_0_n_n 64 rfl rfl d))

theorem out_lhs0 (j : S1024x64.Idx) (c : dot_S1024x2048_S2048x64_S1024x64_1_0_0_1_n_n.contr.Idx) : (dot_S1024x2048_S2048x64_S1024x64_1_0_0_1_n_n.lhsIdx j c 0).val = (j 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem out_lhs1 (j : S1024x64.Idx) (c : dot_S1024x2048_S2048x64_S1024x64_1_0_0_1_n_n.contr.Idx) : (dot_S1024x2048_S2048x64_S1024x64_1_0_0_1_n_n.lhsIdx j c 1).val = (c ⟨0, by decide⟩).val :=
  dot_S1024x2048_S2048x64_S1024x64_1_0_0_1_n_n.lhsIdx_val_of_single rfl j c
theorem out_rhs0 (j : S1024x64.Idx) (c : dot_S1024x2048_S2048x64_S1024x64_1_0_0_1_n_n.contr.Idx) : (dot_S1024x2048_S2048x64_S1024x64_1_0_0_1_n_n.rhsIdx j c 0).val = (c ⟨0, by decide⟩).val :=
  dot_S1024x2048_S2048x64_S1024x64_1_0_0_1_n_n.rhsIdx_val_of_single rfl j c
theorem out_rhs1 (j : S1024x64.Idx) (c : dot_S1024x2048_S2048x64_S1024x64_1_0_0_1_n_n.contr.Idx) : (dot_S1024x2048_S2048x64_S1024x64_1_0_0_1_n_n.rhsIdx j c 1).val = (j 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- The output product at `(r, d)` reads the weights at `(r, k)` … -/
theorem out_lhs (r : Fin 1024) (d : Fin 64) (k : Fin 2048) :
    dot_S1024x2048_S2048x64_S1024x64_1_0_0_1_n_n.lhsIdx (ix2 r d) ((contrEquiv1 dot_S1024x2048_S2048x64_S1024x64_1_0_0_1_n_n 2048 rfl rfl).symm k) = ix2 r k :=
  funext fun a => Fin.ext (by
    match a with
    | ⟨0, _⟩ => exact out_lhs0 _ _
    | ⟨1, _⟩ => exact (out_lhs1 _ _).trans (contrEquiv1_symm_val dot_S1024x2048_S2048x64_S1024x64_1_0_0_1_n_n 2048 rfl rfl k))
/-- … and the value block at `(k, d)`. -/
theorem out_rhs (r : Fin 1024) (d : Fin 64) (k : Fin 2048) :
    dot_S1024x2048_S2048x64_S1024x64_1_0_0_1_n_n.rhsIdx (ix2 r d) ((contrEquiv1 dot_S1024x2048_S2048x64_S1024x64_1_0_0_1_n_n 2048 rfl rfl).symm k) = ix2 k d :=
  funext fun a => Fin.ext (by
    match a with
    | ⟨0, _⟩ => exact (out_rhs0 _ _).trans (contrEquiv1_symm_val dot_S1024x2048_S2048x64_S1024x64_1_0_0_1_n_n 2048 rfl rfl k)
    | ⟨1, _⟩ => exact out_rhs1 _ _)

/-! ## The body on arbitrary blocks -/

variable (v0 : Vec Ideal S1x1x1024x64 .f32) (v2 v4 : Vec Ideal S1x1x2048x64 .f32) (v9 : Vec Ideal S1x1x1024x2048 .i32)

/-- The block of masked, scaled scores as the body computes it. -/
def mscores : FVec Ideal S1024x2048 .f32 :=
  select (cmpi .ne (shapeCast S1024x2048 v9 shapeCasts_S1x1x1024x2048_S1024x2048 : IVec S1024x2048 32) (constantI S1024x2048 32 0#32))
    (broadcast S1024x2048 (Scalar.ofBits (F := Ideal) .f32 0xCE6E6B28#32))
    (mulf (matmul dot_S1024x64_S2048x64_S1024x2048_1_1_0_0_n_n (some .fp32) (shapeCast S1024x64 v0 shapeCasts_S1x1x1024x64_S1024x64 : FVec Ideal S1024x64 .f32)
        (shapeCast S2048x64 v2 shapeCasts_S1x1x2048x64_S2048x64 : FVec Ideal S2048x64 .f32) (constant S1024x2048 .f32 0x00000000#32))
      (broadcast S1024x2048 (Scalar.ofBits (F := Ideal) .f32 0x3E000000#32)))

/-- The score of block row `r` against key row `k`. -/
def bscore (r : Fin 1024) (k : Fin 2048) : EReal :=
  Scalar.select (IntOp.cmpi .ne (v9 (ix4 (0 : Fin 1) (0 : Fin 1) r k)) 0#32) (Ideal.ofBits .f32 0xCE6E6B28#32)
    ((∑ d : Fin 64, v0 (ix4 (0 : Fin 1) (0 : Fin 1) r d) * v2 (ix4 (0 : Fin 1) (0 : Fin 1) k d)) * Ideal.ofBits .f32 0x3E000000#32)

theorem mscores_apply (r : Fin 1024) (k : Fin 2048) : mscores v0 v2 v9 (ix2 r k) = bscore v0 v2 v9 r k := by
  have hm : matmul dot_S1024x64_S2048x64_S1024x2048_1_1_0_0_n_n (some .fp32) (shapeCast S1024x64 v0 shapeCasts_S1x1x1024x64_S1024x64 : FVec Ideal S1024x64 .f32)
        (shapeCast S2048x64 v2 shapeCasts_S1x1x2048x64_S2048x64 : FVec Ideal S2048x64 .f32) (constant S1024x2048 .f32 0x00000000#32) (ix2 r k)
      = ∑ d : Fin 64, v0 (ix4 (0 : Fin 1) (0 : Fin 1) r d) * v2 (ix4 (0 : Fin 1) (0 : Fin 1) k d) := by
    refine (Cert.Lib.MatmulSum.matmul_zero_eq_sum dot_S1024x64_S2048x64_S1024x2048_1_1_0_0_n_n (some .fp32) 64 rfl rfl _ _ (ix2 r k) (fun d => ix2 r d) (fun d => ix2 k d)
      (scores_lhs r k) (scores_rhs r k)).trans ?_
    exact Finset.sum_congr rfl fun d _ => by rw [dropUnits_apply, dropUnits_apply]
  have hw : shapeCast S1024x2048 v9 shapeCasts_S1x1x1024x2048_S1024x2048 (ix2 r k) = v9 (ix4 (0 : Fin 1) (0 : Fin 1) r k) :=
    dropUnits_apply v9 _ r k
  show Scalar.select (IntOp.cmpi .ne (shapeCast S1024x2048 v9 shapeCasts_S1x1x1024x2048_S1024x2048 (ix2 r k)) 0#32)
      (Ideal.ofBits .f32 0xCE6E6B28#32)
      (matmul dot_S1024x64_S2048x64_S1024x2048_1_1_0_0_n_n (some .fp32) (shapeCast S1024x64 v0 shapeCasts_S1x1x1024x64_S1024x64 : FVec Ideal S1024x64 .f32)
        (shapeCast S2048x64 v2 shapeCasts_S1x1x2048x64_S2048x64 : FVec Ideal S2048x64 .f32) (constant S1024x2048 .f32 0x00000000#32) (ix2 r k)
        * Ideal.ofBits .f32 0x3E000000#32) = _
  rw [hm, hw]
  rfl

/-- The largest score of block row `r`, from minus infinity. -/
def bmax (r : Fin 1024) : EReal :=
  (Finset.univ : Finset (Fin 2048)).fold max (Ideal.ofBits .f32 0xFF800000#32) (fun k => bscore v0 v2 v9 r k)

/-- The weights block at `(r, k)`: the five softmax steps along row `r` of the scores. -/
theorem weights_block_apply (r : Fin 1024) (k : Fin 2048) :
    k0_pay2 (F := Ideal) v0 v2 v9 (ix2 r k)
      = Ideal.div (Ideal.exp (bscore v0 v2 v9 r k - bmax v0 v2 v9 r))
          (∑ k' : Fin 2048, Ideal.exp (bscore v0 v2 v9 r k' - bmax v0 v2 v9 r)) := by
  refine (Cert.Lib.SoftmaxRows.softmax_rows_apply (mscores v0 v2 v9) reduces_S1024x2048_S1024 (.inl rfl) rfl rfl
    shapeCasts_S1024_S1024x1 broadcasts_S1024x1_S1024x2048 r k).trans ?_
  unfold bmax
  simp only [mscores_apply]

/-- The output block at `(r, d)`: the weights of row `r` against column `d` of the value block. -/
theorem out_block_apply (r : Fin 1024) (d : Fin 64) :
    k0_pay4 (F := Ideal) v0 v2 v4 v9 (ix2 r d)
      = ∑ k : Fin 2048, k0_pay2 (F := Ideal) v0 v2 v9 (ix2 r k) * v4 (ix4 (0 : Fin 1) (0 : Fin 1) k d) := by
  refine (Cert.Lib.MatmulSum.matmul_zero_eq_sum dot_S1024x2048_S2048x64_S1024x64_1_0_0_1_n_n (some .fp32) 2048 rfl rfl (k0_pay2 (F := Ideal) v0 v2 v9)
    (shapeCast S2048x64 v4 shapeCasts_S1x1x2048x64_S2048x64 : FVec Ideal S2048x64 .f32) (ix2 r d) (fun k => ix2 r k) (fun k => ix2 k d)
    (out_lhs r d) (out_rhs r d)).trans ?_
  exact Finset.sum_congr rfl fun k _ => congrArg (k0_pay2 (F := Ideal) v0 v2 v9 (ix2 r k) * ·) (dropUnits_apply v4 _ k d)

/-! ## The blocks of one batch and head -/

variable (Q K V : FVec Ideal Sx .f32) (M : IVec Sw 1) (b : Fin 2) (h : Fin 16) (qOf : Fin 1024 → Fin 2048)

/-- When the blocks are rows of the arrays, a block score is the specification's score. -/
theorem bscore_eq (hQ : ∀ r d, v0 (ix4 (0 : Fin 1) (0 : Fin 1) r d) = Q (ix4 b h (qOf r) d))
    (hK : ∀ k d, v2 (ix4 (0 : Fin 1) (0 : Fin 1) k d) = K (ix4 b h k d))
    (hM : ∀ r k, v9 (ix4 (0 : Fin 1) (0 : Fin 1) r k) = (M (ix4 b h (qOf r) k)).setWidth 32)
    (r : Fin 1024) (k : Fin 2048) : bscore v0 v2 v9 r k = score Q K M b h (qOf r) k := by
  unfold bscore score
  rw [hM, Cert.Lib.MaskBit.ne_zero_setWidth]
  simp only [hQ, hK]

/-- So the weights block holds the specification's weights of the block's query positions … -/
theorem weights_block_eq (hQ : ∀ r d, v0 (ix4 (0 : Fin 1) (0 : Fin 1) r d) = Q (ix4 b h (qOf r) d))
    (hK : ∀ k d, v2 (ix4 (0 : Fin 1) (0 : Fin 1) k d) = K (ix4 b h k d))
    (hM : ∀ r k, v9 (ix4 (0 : Fin 1) (0 : Fin 1) r k) = (M (ix4 b h (qOf r) k)).setWidth 32)
    (r : Fin 1024) (k : Fin 2048) : k0_pay2 (F := Ideal) v0 v2 v9 (ix2 r k) = weight Q K M b h (qOf r) k := by
  rw [weights_block_apply]
  unfold bmax weight expo rowMax
  simp only [bscore_eq v0 v2 v9 Q K M b h qOf hQ hK hM]

/-- … and the output block the specification's outputs there. -/
theorem out_block_eq (hQ : ∀ r d, v0 (ix4 (0 : Fin 1) (0 : Fin 1) r d) = Q (ix4 b h (qOf r) d))
    (hK : ∀ k d, v2 (ix4 (0 : Fin 1) (0 : Fin 1) k d) = K (ix4 b h k d))
    (hV : ∀ k d, v4 (ix4 (0 : Fin 1) (0 : Fin 1) k d) = V (ix4 b h k d))
    (hM : ∀ r k, v9 (ix4 (0 : Fin 1) (0 : Fin 1) r k) = (M (ix4 b h (qOf r) k)).setWidth 32)
    (r : Fin 1024) (d : Fin 64) :
    k0_pay4 (F := Ideal) v0 v2 v4 v9 (ix2 r d) = ∑ k : Fin 2048, weight Q K M b h (qOf r) k * V (ix4 b h k d) := by
  rw [out_block_apply]
  simp only [weights_block_eq v0 v2 v9 Q K M b h qOf hQ hK hM, hV]

end Cert.KernelIdeal.Block

end
-- ==== Proof.KernelArrays.lean ====
/-
  From the grid points' blocks to the two result arrays.

  Grid point t has a batch, a head and a half of the query positions: its blocks of the queries, of the widened mask
  and of both results are rows 1024·half … 1024·half + 1023 at that batch and head, and its key and value blocks are
  all 2048 rows there. So what the point writes back is the block of the specification's weights, and of its outputs,
  at those coordinates; the 64 points' blocks cover both result arrays, which therefore end holding the specification's
  weights and outputs of the argument arrays. The mask reaches the region widened to words by a host conversion.
-/
import proofs.«131580_j28673201668215_2_alg».proof.Proof.Gen.KernelIdeal.Value
import proofs.«131580_j28673201668215_2_alg».proof.Proof.KernelBlock
import Idealize.ShloMosaic.Lib.Pipeline.Value
import Idealize.ShloMosaic.Lib.StableHlo.Run
import Idealize.ShloMosaic.Lib.Tactic

noncomputable section

namespace Cert.KernelIdeal.Arrays

open Cert.KernelIdeal Cert.KernelIdeal.Gen Cert.KernelIdeal.Value
open Idealize.ShloMosaic Idealize.ShloMosaic.TcCoe Idealize.SL.Sem Idealize.ShloMosaic.ValueIdx Cert.Attn
open Idealize.ShloMosaic.Pipeline (Dat)

variable (m : (ℓ : Loc nD τ sig) → Buf (Elt Ideal) ℓ) (ρ : Dev nD → PrngReg)

theorem hz : (![0, 0, 0, 0] : Fin 4 → Nat) = fun _ => 0 := funext fun a => by fin_cases a <;> rfl

/-! ## The grid points' coordinates -/

/-- The windows' block indices, decided over the 64 points: the query, mask and result windows move together, the key
    and value windows follow the batch and the head only, and the block indices stay in their ranges. -/
theorem idx_facts : ∀ t : Fin cfg0.N,
    (win0_0.index t (0 : Fin 4) = win0_5.index t (0 : Fin 4) ∧ win0_0.index t (1 : Fin 4) = win0_5.index t (1 : Fin 4) ∧ win0_0.index t (2 : Fin 4) = win0_5.index t (2 : Fin 4) ∧ win0_0.index t (3 : Fin 4) = 0)
    ∧ (win0_1.index t (0 : Fin 4) = win0_5.index t (0 : Fin 4) ∧ win0_1.index t (1 : Fin 4) = win0_5.index t (1 : Fin 4) ∧ win0_1.index t (2 : Fin 4) = 0 ∧ win0_1.index t (3 : Fin 4) = 0)
    ∧ (win0_2.index t (0 : Fin 4) = win0_5.index t (0 : Fin 4) ∧ win0_2.index t (1 : Fin 4) = win0_5.index t (1 : Fin 4) ∧ win0_2.index t (2 : Fin 4) = 0 ∧ win0_2.index t (3 : Fin 4) = 0)
    ∧ (win0_3.index t (0 : Fin 4) = win0_5.index t (0 : Fin 4) ∧ win0_3.index t (1 : Fin 4) = win0_5.index t (1 : Fin 4) ∧ win0_3.index t (2 : Fin 4) = win0_5.index t (2 : Fin 4) ∧ win0_3.index t (3 : Fin 4) = 0)
    ∧ (win0_4.index t (0 : Fin 4) = win0_5.index t (0 : Fin 4) ∧ win0_4.index t (1 : Fin 4) = win0_5.index t (1 : Fin 4) ∧ win0_4.index t (2 : Fin 4) = win0_5.index t (2 : Fin 4) ∧ win0_4.index t (3 : Fin 4) = 0)
    ∧ (win0_5.index t (0 : Fin 4) < 2 ∧ win0_5.index t (1 : Fin 4) < 16 ∧ win0_5.index t (2 : Fin 4) < 2 ∧ win0_5.index t (3 : Fin 4) = 0) :=
  (by decide +kernel : ∀ t : Fin grid0.N, _)

/-- Every batch, head and half of the query positions is some point's. -/
theorem idx_onto : ∀ (b : Fin 2) (h : Fin 16) (s : Fin 2), ∃ t : Fin cfg0.N, win0_5.index t = ![b.val, h.val, s.val, 0] :=
  (by decide +kernel : ∀ (b : Fin 2) (h : Fin 16) (s : Fin 2), ∃ t : Fin grid0.N, win0_5.index t = ![b.val, h.val, s.val, 0])

/-- Point `t`'s batch. -/
def pb (t : Fin cfg0.N) : Fin 2 := ⟨win0_5.index t (0 : Fin 4), (idx_facts t).2.2.2.2.2.1⟩
/-- Point `t`'s head. -/
def ph (t : Fin cfg0.N) : Fin 16 := ⟨win0_5.index t (1 : Fin 4), (idx_facts t).2.2.2.2.2.2.1⟩
/-- The query position of row `r` of point `t`'s blocks. -/
def pq (t : Fin cfg0.N) (r : Fin 1024) : Fin 2048 :=
  ⟨win0_5.index t (2 : Fin 4) * 1024 + r.val, by have := (idx_facts t).2.2.2.2.2.2.2.1; have := r.isLt; omega⟩

/-! ## The input blocks as rows of the arrays -/

theorem qblock_apply (c : Dev nD) (t : Fin cfg0.N) (r : Fin 1024) (d : Fin 64) :
    (iblk m c 0 t : Vec Ideal S1x1x1024x64 .f32) (ix4 (0 : Fin 1) (0 : Fin 1) r d)
      = ((m ((c : Thread nD τ).loc main_arg0)) : S2x16x2048x64.Idx → EReal) (ix4 (pb t) (ph t) (pq t r) d) := by
  obtain ⟨⟨e0, e1, e2, e3⟩, -⟩ := idx_facts t
  unfold iblk
  rw [View.read_apply]
  show V m c main_arg0 _ = _
  rw [V_main_arg0]
  refine congrArg ((m ((c : Thread nD τ).loc main_arg0)) : S2x16x2048x64.Idx → EReal) (funext fun a => Fin.ext ?_)
  match a with
  | ⟨0, _⟩ => show win0_0.index t (0 : Fin 4) * 1 + 1 * 0 = win0_5.index t (0 : Fin 4); omega
  | ⟨1, _⟩ => show win0_0.index t (1 : Fin 4) * 1 + 1 * 0 = win0_5.index t (1 : Fin 4); omega
  | ⟨2, _⟩ => show win0_0.index t (2 : Fin 4) * 1024 + 1 * r.val = win0_5.index t (2 : Fin 4) * 1024 + r.val; omega
  | ⟨3, _⟩ => show win0_0.index t (3 : Fin 4) * 64 + 1 * d.val = d.val; omega

theorem kblock_apply (c : Dev nD) (t : Fin cfg0.N) (k : Fin 2048) (d : Fin 64) :
    (iblk m c 1 t : Vec Ideal S1x1x2048x64 .f32) (ix4 (0 : Fin 1) (0 : Fin 1) k d)
      = ((m ((c : Thread nD τ).loc main_arg1)) : S2x16x2048x64.Idx → EReal) (ix4 (pb t) (ph t) k d) := by
  obtain ⟨-, ⟨e0, e1, e2, e3⟩, -⟩ := idx_facts t
  unfold iblk
  rw [View.read_apply]
  show V m c main_arg1 _ = _
  rw [V_main_arg1]
  refine congrArg ((m ((c : Thread nD τ).loc main_arg1)) : S2x16x2048x64.Idx → EReal) (funext fun a => Fin.ext ?_)
  match a with
  | ⟨0, _⟩ => show win0_1.index t (0 : Fin 4) * 1 + 1 * 0 = win0_5.index t (0 : Fin 4); omega
  | ⟨1, _⟩ => show win0_1.index t (1 : Fin 4) * 1 + 1 * 0 = win0_5.index t (1 : Fin 4); omega
  | ⟨2, _⟩ => show win0_1.index t (2 : Fin 4) * 2048 + 1 * k.val = k.val; omega
  | ⟨3, _⟩ => show win0_1.index t (3 : Fin 4) * 64 + 1 * d.val = d.val; omega

theorem vblock_apply (c : Dev nD) (t : Fin cfg0.N) (k : Fin 2048) (d : Fin 64) :
    (iblk m c 2 t : Vec Ideal S1x1x2048x64 .f32) (ix4 (0 : Fin 1) (0 : Fin 1) k d)
      = ((m ((c : Thread nD τ).loc main_arg2)) : S2x16x2048x64.Idx → EReal) (ix4 (pb t) (ph t) k d) := by
  obtain ⟨-, -, ⟨e0, e1, e2, e3⟩, -⟩ := idx_facts t
  unfold iblk
  rw [View.read_apply]
  show V m c main_arg2 _ = _
  rw [V_main_arg2]
  refine congrArg ((m ((c : Thread nD τ).loc main_arg2)) : S2x16x2048x64.Idx → EReal) (funext fun a => Fin.ext ?_)
  match a with
  | ⟨0, _⟩ => show win0_2.index t (0 : Fin 4) * 1 + 1 * 0 = win0_5.index t (0 : Fin 4); omega
  | ⟨1, _⟩ => show win0_2.index t (1 : Fin 4) * 1 + 1 * 0 = win0_5.index t (1 : Fin 4); omega
  | ⟨2, _⟩ => show win0_2.index t (2 : Fin 4) * 2048 + 1 * k.val = k.val; omega
  | ⟨3, _⟩ => show win0_2.index t (3 : Fin 4) * 64 + 1 * d.val = d.val; omega

/-- The mask as the region finds it: every bit widened to a 32-bit word by the host. -/
theorem mask_words (c : Dev nD) :
    (V m c main_v0 : S2x16x2048x2048.Idx → BitVec 32) = extui 32 (m ((c : Thread nD τ).loc main_arg3)) natLt_1_32 := by
  dsimp only [Gen.V, Gen.hostOps0]; after_results

theorem mblock_apply (c : Dev nD) (t : Fin cfg0.N) (r : Fin 1024) (k : Fin 2048) :
    (iblk m c 3 t : Vec Ideal S1x1x1024x2048 .i32) (ix4 (0 : Fin 1) (0 : Fin 1) r k)
      = (((m ((c : Thread nD τ).loc main_arg3)) : S2x16x2048x2048.Idx → BitVec 1) (ix4 (pb t) (ph t) (pq t r) k)).setWidth 32 := by
  obtain ⟨-, -, -, ⟨e0, e1, e2, e3⟩, -⟩ := idx_facts t
  unfold iblk
  rw [View.read_apply]
  show (V m c main_v0 : S2x16x2048x2048.Idx → BitVec 32) _ = _
  rw [mask_words]
  show (((m ((c : Thread nD τ).loc main_arg3)) : S2x16x2048x2048.Idx → BitVec 1) _).setWidth 32 = _
  refine congrArg (fun i => (((m ((c : Thread nD τ).loc main_arg3)) : S2x16x2048x2048.Idx → BitVec 1) i).setWidth 32) (funext fun a => Fin.ext ?_)
  match a with
  | ⟨0, _⟩ => show win0_3.index t (0 : Fin 4) * 1 + 1 * 0 = win0_5.index t (0 : Fin 4); omega
  | ⟨1, _⟩ => show win0_3.index t (1 : Fin 4) * 1 + 1 * 0 = win0_5.index t (1 : Fin 4); omega
  | ⟨2, _⟩ => show win0_3.index t (2 : Fin 4) * 1024 + 1 * r.val = win0_5.index t (2 : Fin 4) * 1024 + r.val; omega
  | ⟨3, _⟩ => show win0_3.index t (3 : Fin 4) * 2048 + 1 * k.val = k.val; omega

/-! ## What the body leaves in each result block, over arbitrary blocks -/

theorem weights_out_apply (x0 : Vec Ideal S1x1x1024x64 .f32) (x1 x2 : Vec Ideal S1x1x2048x64 .f32) (x3 : Vec Ideal S1x1x1024x2048 .i32)
    (u0 u1 : Fin 1) (r : Fin 1024) (k : Fin 2048) :
    out0_5 x0 x1 x2 x3 (ix4 u0 u1 r k) = k0_pay2 (F := Ideal) x0 x1 x3 (ix2 r k) := by
  unfold out0_5
  simp only [View.ld_unit_zero (S := S1x1x1024x64) hz, View.ld_unit_zero (S := S1x1x2048x64) hz, View.ld_unit_zero (S := S1x1x1024x2048) hz]
  refine (canon5_eq x0 x1 x3 (ix4 u0 u1 r k)).trans ?_
  exact congrArg (k0_pay2 (F := Ideal) x0 x1 x3) (funext fun a => Fin.ext (by match a with | ⟨0, _⟩ => rfl | ⟨1, _⟩ => rfl))

theorem outputs_out_apply (x0 : Vec Ideal S1x1x1024x64 .f32) (x1 x2 : Vec Ideal S1x1x2048x64 .f32) (x3 : Vec Ideal S1x1x1024x2048 .i32)
    (u0 u1 : Fin 1) (r : Fin 1024) (d : Fin 64) :
    out0_4 x0 x1 x2 x3 (ix4 u0 u1 r d) = k0_pay4 (F := Ideal) x0 x1 x2 x3 (ix2 r d) := by
  unfold out0_4
  simp only [View.ld_unit_zero (S := S1x1x1024x64) hz, View.ld_unit_zero (S := S1x1x2048x64) hz, View.ld_unit_zero (S := S1x1x1024x2048) hz]
  refine (canon4_eq x0 x1 x2 x3 (ix4 u0 u1 r d)).trans ?_
  exact congrArg (k0_pay4 (F := Ideal) x0 x1 x2 x3) (funext fun a => Fin.ext (by match a with | ⟨0, _⟩ => rfl | ⟨1, _⟩ => rfl))

/-! ## The weights array -/

/-- The weights of the argument arrays. -/
abbrev W (c : Dev nD) : S2x16x2048x2048.Idx → EReal :=
  attn (m ((c : Thread nD τ).loc main_arg0)) (m ((c : Thread nD τ).loc main_arg1)) (m ((c : Thread nD τ).loc main_arg3))

/-- What point `t` writes back to the weights array is block `t` of the weights. -/
theorem flushed_weights (c : Dev nD) (t : Fin cfg0.N) :
    (dats m 0 c).flushed 5 t = ((cfg0.win 5).blk t).view.read (Elt Ideal) (W m c) := by
  rw [flushed5]
  funext y
  obtain ⟨u0, u1, r, k, rfl⟩ : ∃ (u0 u1 : Fin 1) (r : Fin 1024) (k : Fin 2048), y = ix4 u0 u1 r k := ⟨y 0, y 1, y 2, y 3, eq_ix4 y⟩
  show out0_5 (iblk m c 0 t) (iblk m c 1 t) (iblk m c 2 t) (iblk m c 3 t) (ix4 u0 u1 r k) = W m c (((cfg0.win 5).blk t).view.emb (ix4 u0 u1 r k))
  have he : ((cfg0.win 5).blk t).view.emb (ix4 u0 u1 r k) = ix4 (pb t) (ph t) (pq t r) k := by
    obtain ⟨-, -, -, -, -, f0, f1, f2, f3⟩ := idx_facts t
    have h0 := u0.isLt
    have h1 := u1.isLt
    funext a
    apply Fin.ext
    match a with
    | ⟨0, _⟩ => show win0_5.index t (0 : Fin 4) * 1 + 1 * u0.val = win0_5.index t (0 : Fin 4); omega
    | ⟨1, _⟩ => show win0_5.index t (1 : Fin 4) * 1 + 1 * u1.val = win0_5.index t (1 : Fin 4); omega
    | ⟨2, _⟩ => show win0_5.index t (2 : Fin 4) * 1024 + 1 * r.val = win0_5.index t (2 : Fin 4) * 1024 + r.val; omega
    | ⟨3, _⟩ => show win0_5.index t (3 : Fin 4) * 2048 + 1 * k.val = k.val; omega
  rw [he]
  refine (weights_out_apply (iblk m c 0 t) (iblk m c 1 t) (iblk m c 2 t) (iblk m c 3 t) u0 u1 r k).trans ?_
  exact Block.weights_block_eq (iblk m c 0 t) (iblk m c 1 t) (iblk m c 3 t) (m ((c : Thread nD τ).loc main_arg0)) (m ((c : Thread nD τ).loc main_arg1)) (m ((c : Thread nD τ).loc main_arg3))
    (pb t) (ph t) (pq t) (qblock_apply m c t) (kblock_apply m c t) (mblock_apply m c t) r k

/-- An index of the weights array is in point `t`'s block iff each coordinate is in the block's range on its axis. -/
theorem mem_weights_blk (t : Fin cfg0.N) (i : S2x16x2048x2048.Idx) :
    i ∈ ((cfg0.win 5).blk t).view.set ↔ ∀ a : Fin 4, win0_5.index t a * S1x1x1024x2048.size a ≤ (i a).val ∧ (i a).val < win0_5.index t a * S1x1x1024x2048.size a + S1x1x1024x2048.size a := by
  show i ∈ ((View.whole main_v1_1).slice (win0_5.rect t)).set ↔ _
  rw [View.set_slice_whole, Rect.mem_set_unit]
  exact Iff.rfl

/-- Every index of the weights array is in some point's block: the one of its batch, head and half. -/
theorem cover_weights (i : S2x16x2048x2048.Idx) :
    ∃ t : Fin cfg0.N, (cfg0.win 5).flush t = true ∧ i ∈ ((cfg0.win 5).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, ht⟩ := idx_onto ⟨(i 0).val, hi0⟩ ⟨(i 1).val, hi1⟩ ⟨(i 2).val / 1024, by omega⟩
  have q0 : win0_5.index t (0 : Fin 4) = (i 0).val := congrFun ht 0
  have q1 : win0_5.index t (1 : Fin 4) = (i 1).val := congrFun ht 1
  have q2 : win0_5.index t (2 : Fin 4) = (i 2).val / 1024 := congrFun ht 2
  have q3 : win0_5.index t (3 : Fin 4) = 0 := congrFun ht 3
  refine ⟨t, flush0_5 t, ?_⟩
  rw [mem_weights_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 1024 ≤ (i 2).val ∧ (i 2).val < win0_5.index t (2 : Fin 4) * 1024 + 1024; omega
  | ⟨3, _⟩ => show win0_5.index t (3 : Fin 4) * 2048 ≤ (i 3).val ∧ (i 3).val < win0_5.index t (3 : Fin 4) * 2048 + 2048; omega

/-- The weights array after the run. -/
theorem final_weights (c : Dev nD) : (dats m 0 c).arrAt 5 cfg0.N = W m c :=
  (dats m 0 c).arrAt_eq_of_cover 5 (W m c) (fun t _ => flushed_weights m c t) cover_weights

/-! ## The outputs array -/

/-- The outputs of the argument arrays. -/
abbrev O (c : Dev nD) : S2x16x2048x64.Idx → EReal :=
  prob (m ((c : Thread nD τ).loc main_arg0)) (m ((c : Thread nD τ).loc main_arg1)) (m ((c : Thread nD τ).loc main_arg2)) (m ((c : Thread nD τ).loc main_arg3))

/-- What point `t` writes back to the outputs array is block `t` of the outputs. -/
theorem flushed_outputs (c : Dev nD) (t : Fin cfg0.N) :
    (dats m 0 c).flushed 4 t = ((cfg0.win 4).blk t).view.read (Elt Ideal) (O m c) := by
  rw [flushed4]
  funext y
  obtain ⟨u0, u1, r, d, rfl⟩ : ∃ (u0 u1 : Fin 1) (r : Fin 1024) (d : Fin 64), y = ix4 u0 u1 r d := ⟨y 0, y 1, y 2, y 3, eq_ix4 y⟩
  show out0_4 (iblk m c 0 t) (iblk m c 1 t) (iblk m c 2 t) (iblk m c 3 t) (ix4 u0 u1 r d) = O m c (((cfg0.win 4).blk t).view.emb (ix4 u0 u1 r d))
  have he : ((cfg0.win 4).blk t).view.emb (ix4 u0 u1 r d) = ix4 (pb t) (ph t) (pq t r) d := by
    obtain ⟨-, -, -, -, ⟨e0, e1, e2, e3⟩, -⟩ := idx_facts t
    have h0 := u0.isLt
    have h1 := u1.isLt
    funext a
    apply Fin.ext
    match a with
    | ⟨0, _⟩ => show win0_4.index t (0 : Fin 4) * 1 + 1 * u0.val = win0_5.index t (0 : Fin 4); omega
    | ⟨1, _⟩ => show win0_4.index t (1 : Fin 4) * 1 + 1 * u1.val = win0_5.index t (1 : Fin 4); omega
    | ⟨2, _⟩ => show win0_4.index t (2 : Fin 4) * 1024 + 1 * r.val = win0_5.index t (2 : Fin 4) * 1024 + r.val; omega
    | ⟨3, _⟩ => show win0_4.index t (3 : Fin 4) * 64 + 1 * d.val = d.val; omega
  rw [he]
  refine (outputs_out_apply (iblk m c 0 t) (iblk m c 1 t) (iblk m c 2 t) (iblk m c 3 t) u0 u1 r d).trans ?_
  exact Block.out_block_eq (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3))
    (pb t) (ph t) (pq t) (qblock_apply m c t) (kblock_apply m c t) (vblock_apply m c t) (mblock_apply m c t) r d

theorem mem_outputs_blk (t : Fin cfg0.N) (i : S2x16x2048x64.Idx) :
    i ∈ ((cfg0.win 4).blk t).view.set ↔ ∀ a : Fin 4, win0_4.index t a * S1x1x1024x64.size a ≤ (i a).val ∧ (i a).val < win0_4.index t a * S1x1x1024x64.size a + S1x1x1024x64.size a := by
  show i ∈ ((View.whole main_v1_0).slice (win0_4.rect t)).set ↔ _
  rw [View.set_slice_whole, Rect.mem_set_unit]
  exact Iff.rfl

theorem cover_outputs (i : S2x16x2048x64.Idx) :
    ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 1).val, hi1⟩ ⟨(i 2).val / 1024, by omega⟩
  obtain ⟨-, -, -, -, ⟨e0, e1, e2, e3⟩, -⟩ := idx_facts t
  have q0 : win0_5.index t (0 : Fin 4) = (i 0).val := congrFun ht 0
  have q1 : win0_5.index t (1 : Fin 4) = (i 1).val := congrFun ht 1
  have q2 : win0_5.index t (2 : Fin 4) = (i 2).val / 1024 := congrFun ht 2
  refine ⟨t, flush0_4 t, ?_⟩
  rw [mem_outputs_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 1024 ≤ (i 2).val ∧ (i 2).val < win0_4.index t (2 : Fin 4) * 1024 + 1024; omega
  | ⟨3, _⟩ => show win0_4.index t (3 : Fin 4) * 64 ≤ (i 3).val ∧ (i 3).val < win0_4.index t (3 : Fin 4) * 64 + 64; omega

/-- The outputs array after the run. -/
theorem final_outputs (c : Dev nD) : (dats m 0 c).arrAt 4 cfg0.N = O m c :=
  (dats m 0 c).arrAt_eq_of_cover 4 (O m c) (fun t _ => flushed_outputs m c t) cover_outputs

/-! ## The run -/

/-- Every execution of the kernel's program ends with the outputs array at the specification's outputs and the weights
    array at its weights of the argument arrays, the arguments unchanged. -/
theorem run : θ_run defs (onTc (τ := τ) (main (F := Ideal))) ⟨m, fun _ => 0, ρ⟩ fun r => ∀ c : Dev nD,
      r.2.mem ((c : Thread nD τ).loc main_v1_0) = O m c
      ∧ r.2.mem ((c : Thread nD τ).loc main_v1_1) = W m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_outputs m c), (h c).2.1.trans (final_weights m c), (h c).2.2⟩)
    (run_blocks m ρ)

end Cert.KernelIdeal.Arrays

end
-- ==== Proof.lean ====
/-
  A fused attention kernel against its plain reference, on the extended reals.

  Both programs take queries, keys and values of shape [2,16,2048,64] and a boolean mask [2,16,2048,2048] and return
  the outputs [2,16,2048,64] and the weights [2,16,2048,2048] of scaled dot-product attention: a score is the dot
  product of a query row with a key row times one eighth, replaced by -10^9 where the mask is set; a row's weights are
  the exponentials of its scores less the row's largest score, over their sum; an output row is the combination of the
  value rows with the row's weights (Proof/AttnSpec.lean states this index by index).

  The reference computes it on whole arrays (Proof/RefAttn.lean reads each of its operations at an index). The kernel
  walks a grid of 64 points — a batch, a head and one half of the query positions each — and on the point's blocks
  performs the same steps on 1024 rows at a time (Proof/KernelBlock.lean); the points' blocks tile both result arrays
  (Proof/KernelArrays.lean). The two sides differ only in how the work is cut up: a sum over 64 features or over 2048
  keys is the same sum however it is reached, the row maximum is one fold of `max` from minus infinity on both sides
  (the reference's extra maximum with minus infinity changes nothing), and the mask, which the kernel receives widened
  to words and tests against zero, selects the same entries. No law is used that needs the inputs to be finite.

  The three programs run, fault-free and leaving their arguments unchanged, by the generated frames and the generated
  run of the reference; the kernel's idealization rewrote no operation, so it is preserved trivially.
-/
import proofs.«131580_j28673201668215_2_alg».proof.Defs
import proofs.«131580_j28673201668215_2_alg».proof.Proof.Gen.Kernel
import proofs.«131580_j28673201668215_2_alg».proof.Proof.Gen.Kernel.Skeleton
import proofs.«131580_j28673201668215_2_alg».proof.Proof.Gen.Kernel.Launch
import proofs.«131580_j28673201668215_2_alg».proof.Proof.Gen.Kernel.Points
import proofs.«131580_j28673201668215_2_alg».proof.Proof.Gen.Kernel.Frame
import proofs.«131580_j28673201668215_2_alg».proof.Proof.Gen.KernelIdeal
import proofs.«131580_j28673201668215_2_alg».proof.Proof.Gen.KernelIdeal.Skeleton
import proofs.«131580_j28673201668215_2_alg».proof.Proof.Gen.KernelIdeal.Launch
import proofs.«131580_j28673201668215_2_alg».proof.Proof.Gen.KernelIdeal.Points
import proofs.«131580_j28673201668215_2_alg».proof.Proof.Gen.KernelIdeal.Frame
import proofs.«131580_j28673201668215_2_alg».proof.Proof.Gen.ReferenceIdeal
import proofs.«131580_j28673201668215_2_alg».proof.Proof.Gen.Pre_finite_inputs
import proofs.«131580_j28673201668215_2_alg».proof.Proof.Gen.KernelIdeal.Value
import proofs.«131580_j28673201668215_2_alg».proof.Proof.Gen.ReferenceIdeal.Run
import proofs.«131580_j28673201668215_2_alg».proof.Proof.Gen.ReferenceIdeal.Read
import proofs.«131580_j28673201668215_2_alg».proof.Proof.AttnSpec
import proofs.«131580_j28673201668215_2_alg».proof.Proof.RefAttn
import proofs.«131580_j28673201668215_2_alg».proof.Proof.KernelArrays
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference's run with its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories that agree on the four arguments, the kernel's outputs and weights arrays end at the specification's
    outputs and weights of the arguments, and the reference's two results are those same functions of them. -/
theorem algebraic : Cert.algebraic_KernelIdeal_ReferenceIdeal := by
  intro m ρ m' ρ' _ hagree
  refine ⟨fun c => Cert.KernelIdeal.Arrays.O m c, fun c => Cert.KernelIdeal.Arrays.W m c, Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v15_eq, Cert.ReferenceIdeal.RefValue.outputs_eq,
      (hagree c).1, (hagree c).2.1, (hagree c).2.2.1, (hagree c).2.2.2]
  · rw [Cert.ReferenceIdeal.Read.val_main_v14_eq, Cert.ReferenceIdeal.RefValue.weights_eq,
      (hagree c).1, (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
